-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x65 : Shape := ⟨2, ![262144, 65]⟩
abbrev S8x65 : Shape := ⟨2, ![8, 65]⟩
abbrev S8 : Shape := ⟨1, ![8]⟩
abbrev S256x65 : Shape := ⟨2, ![256, 65]⟩
abbrev S256 : Shape := ⟨1, ![256]⟩
abbrev S8x256 : Shape := ⟨2, ![8, 256]⟩
abbrev S_ : Shape := ⟨0, ![]⟩

class Facts : Prop where
  bcast_S_S262144x65 : S_.BroadcastsInDim S262144x65 (![] : Fin 0 → Fin S262144x65.rank)
  reducesTo_S262144x65_S_d0_1 : S262144x65.ReducesTo [0, 1] S_
  h_S_ : 0 < S_.numel
  bcast_S_S8x65 : S_.BroadcastsInDim S8x65 (![] : Fin 0 → Fin S8x65.rank)
  reducesTo_S8x65_S_d0_1 : S8x65.ReducesTo [0, 1] S_
  bcast_S_S8 : S_.BroadcastsInDim S8 (![] : Fin 0 → Fin S8.rank)
  reducesTo_S8_S_d0 : S8.ReducesTo [0] S_
  bcast_S_S256x65 : S_.BroadcastsInDim S256x65 (![] : Fin 0 → Fin S256x65.rank)
  reducesTo_S256x65_S_d0_1 : S256x65.ReducesTo [0, 1] S_
  bcast_S_S256 : S_.BroadcastsInDim S256 (![] : Fin 0 → Fin S256.rank)
  reducesTo_S256_S_d0 : S256.ReducesTo [0] S_
  bcast_S_S8x256 : S_.BroadcastsInDim S8x256 (![] : Fin 0 → Fin S8x256.rank)
  reducesTo_S8x256_S_d0_1 : S8x256.ReducesTo [0, 1] S_

variable [Facts]

def fn_part1 {F : FTy → Type} [FloatOps F] (main_arg4 : FVec F S256 .f32) (main_arg5 : FVec F S8x256 .f32) (main_arg6 : FVec F S8x256 .f32) (main_v13 : IVec S_ 1) (main_v16 : IVec S256x65 1) : IVec S_ 1 :=
  let main_c_5 : IVec S_ 1 := constantI S_ 1 1#1
  let main_v17 : IVec S_ 1 := (fun x v => Host.reduce IntOp.andi x v reducesTo_S256x65_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S8x256 .f32 := Host.absf main_arg5
  let main_cst_8 : FVec F S_ .f32 := constant S_ .f32 0x7F800000#32
  let main_v25 : FVec F S8x256 .f32 := broadcastInDim S8x256 ![] bcast_S_S8x256 main_cst_8
  let main_v26 : IVec S8x256 1 := cmpf .olt main_v24 main_v25
  let main_c_9 : IVec S_ 1 := constantI S_ 1 1#1
  let main_v27 : IVec S_ 1 := (fun x v => Host.reduce IntOp.andi x v reducesTo_S8x256_S_d0_1 h_S_) main_v26 main_c_9
  let main_v28 : IVec S_ 1 := andi main_v23 main_v27
  let main_v29 : FVec F S8x256 .f32 := Host.absf main_arg6
  let main_cst_10 : FVec F S_ .f32 := constant S_ .f32 0x7F800000#32
  let main_v30 : FVec F S8x256 .f32 := broadcastInDim S8x256 ![] bcast_S_S8x256 main_cst_10
  let main_v31 : IVec S8x256 1 := cmpf .olt main_v29 main_v30
  let main_c_11 : IVec S_ 1 := constantI S_ 1 1#1
  let main_v32 : IVec S_ 1 := (fun x v => Host.reduce IntOp.andi x v reducesTo_S8x256_S_d0_1 h_S_) main_v31 main_c_11
  let main_v33 : IVec S_ 1 := andi main_v28 main_v32
  main_v33

def fn {F : FTy → Type} [FloatOps F] (main_arg0 : FVec F S262144x65 .f32) (main_arg1 : FVec F S8x65 .f32) (main_arg2 : FVec F S8 .f32) (main_arg3 : FVec F S256x65 .f32) (main_arg4 : FVec F S256 .f32) (main_arg5 : FVec F S8x256 .f32) (main_arg6 : FVec F S8x256 .f32) : IVec S_ 1 :=
  let main_v0 : FVec F S262144x65 .f32 := Host.absf main_arg0
  let main_cst : FVec F S_ .f32 := constant S_ .f32 0x7F800000#32
  let main_v1 : FVec F S262144x65 .f32 := broadcastInDim S262144x65 ![] bcast_S_S262144x65 main_cst
  let main_v2 : IVec S262144x65 1 := cmpf .olt main_v0 main_v1
  let main_c : IVec S_ 1 := constantI S_ 1 1#1
  let main_v3 : IVec S_ 1 := (fun x v => Host.reduce IntOp.andi x v reducesTo_S262144x65_S_d0_1 h_S_) main_v2 main_c
  let main_v4 : FVec F S8x65 .f32 := Host.absf main_arg1
  let main_cst_0 : FVec F S_ .f32 := constant S_ .f32 0x7F800000#32
  let main_v5 : FVec F S8x65 .f32 := broadcastInDim S8x65 ![] bcast_S_S8x65 main_cst_0
  let main_v6 : IVec S8x65 1 := cmpf .olt main_v4 main_v5
  let main_c_1 : IVec S_ 1 := constantI S_ 1 1#1
  let main_v7 : IVec S_ 1 := (fun x v => Host.reduce IntOp.andi x v reducesTo_S8x65_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S256x65 .f32 := Host.absf main_arg3
  let main_cst_4 : FVec F S_ .f32 := constant S_ .f32 0x7F800000#32
  let main_v15 : FVec F S256x65 .f32 := broadcastInDim S256x65 ![] bcast_S_S256x65 main_cst_4
  let main_v16 : IVec S256x65 1 := cmpf .olt main_v14 main_v15
  fn_part1 (F := F) main_arg4 main_arg5 main_arg6 main_v13 main_v16
-- ==== Kernel.lean ====
abbrev S262144x65 : Shape := ⟨2, ![262144, 65]⟩
abbrev S8x65 : Shape := ⟨2, ![8, 65]⟩
abbrev S8 : Shape := ⟨1, ![8]⟩
abbrev S256x65 : Shape := ⟨2, ![256, 65]⟩
abbrev S256 : Shape := ⟨1, ![256]⟩
abbrev S8x256 : Shape := ⟨2, ![8, 256]⟩
abbrev S1x8 : Shape := ⟨2, ![1, 8]⟩
abbrev S1x256 : Shape := ⟨2, ![1, 256]⟩
abbrev S262144x1 : Shape := ⟨2, ![262144, 1]⟩
abbrev S262144x8 : Shape := ⟨2, ![262144, 8]⟩
abbrev S2048x65 : Shape := ⟨2, ![2048, 65]⟩
abbrev S2048x1 : Shape := ⟨2, ![2048, 1]⟩
abbrev S2048x8 : Shape := ⟨2, ![2048, 8]⟩
abbrev S65x8 : Shape := ⟨2, ![65, 8]⟩
abbrev S65x256 : Shape := ⟨2, ![65, 256]⟩
abbrev S2048x256 : Shape := ⟨2, ![2048, 256]⟩
abbrev S2048 : Shape := ⟨1, ![2048]⟩

abbrev nBuf : Space → Nat
  | .hbm => 11
  | .vmem => 12
  | .smem => 0
  | _ => 0

abbrev bufTy : (tb : Table) → Fin (tcTables nBuf tb) → BufTy
  | .hbm, ⟨0, _⟩ => ⟨S262144x65, .f32⟩
  | .hbm, ⟨1, _⟩ => ⟨S8x65, .f32⟩
  | .hbm, ⟨2, _⟩ => ⟨S8, .f32⟩
  | .hbm, ⟨3, _⟩ => ⟨S256x65, .f32⟩
  | .hbm, ⟨4, _⟩ => ⟨S256, .f32⟩
  | .hbm, ⟨5, _⟩ => ⟨S8x256, .f32⟩
  | .hbm, ⟨6, _⟩ => ⟨S8x256, .f32⟩
  | .hbm, ⟨7, _⟩ => ⟨S1x8, .f32⟩
  | .hbm, ⟨8, _⟩ => ⟨S1x256, .f32⟩
  | .hbm, ⟨9, _⟩ => ⟨S262144x1, .f32⟩
  | .hbm, ⟨10, _⟩ => ⟨S262144x8, .f32⟩
  | .local _ .vmem, ⟨0, _⟩ => ⟨S2048x65, .f32⟩
  | .local _ .vmem, ⟨1, _⟩ => ⟨S2048x65, .f32⟩
  | .local _ .vmem, ⟨2, _⟩ => ⟨S8x65, .f32⟩
  | .local _ .vmem, ⟨3, _⟩ => ⟨S1x8, .f32⟩
  | .local _ .vmem, ⟨4, _⟩ => ⟨S256x65, .f32⟩
  | .local _ .vmem, ⟨5, _⟩ => ⟨S1x256, .f32⟩
  | .local _ .vmem, ⟨6, _⟩ => ⟨S8x256, .f32⟩
  | .local _ .vmem, ⟨7, _⟩ => ⟨S8x256, .f32⟩
  | .local _ .vmem, ⟨8, _⟩ => ⟨S2048x1, .f32⟩
  | .local _ .vmem, ⟨9, _⟩ => ⟨S2048x1, .f32⟩
  | .local _ .vmem, ⟨10, _⟩ => ⟨S2048x8, .f32⟩
  | .local _ .vmem, ⟨11, _⟩ => ⟨S2048x8, .f32⟩
  | _, _ => ⟨S262144x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x65 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x65 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8_S1x8 : S8.ShapeCasts S1x8
  shapeCasts_S256_S1x256 : S256.ShapeCasts S1x256
  inb_S2048x65_S2048x65_0_0 : ∀ a, (![0, 0] : Fin 2 → Nat) a + S2048x65.size a ≤ S2048x65.size a
  h_S2048x65 : 0 < S2048x65.numel
  bitsLt_bf16_f32 : FTy.bits .bf16 < FTy.bits .f32
  inb_S8x65_S8x65_0_0 : ∀ a, (![0, 0] : Fin 2 → Nat) a + S8x65.size a ≤ S8x65.size a
  h_S8x65 : 0 < S8x65.numel
  inb_S256x65_S256x65_0_0 : ∀ a, (![0, 0] : Fin 2 → Nat) a + S256x65.size a ≤ S256x65.size a
  h_S256x65 : 0 < S256x65.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8x256_S8x256_0_0 : ∀ a, (![0, 0] : Fin 2 → Nat) a + S8x256.size a ≤ S8x256.size a
  h_S8x256 : 0 < S8x256.numel
  transposes_S8x65_p1_0_S65x8 : S8x65.Transposes [1, 0] S65x8
  broadcasts_S1x8_S2048x8 : S1x8.Broadcasts S2048x8
  transposes_S256x65_p1_0_S65x256 : S256x65.Transposes [1, 0] S65x256
  broadcasts_S1x256_S2048x256 : S1x256.Broadcasts S2048x256
  slices_S8x256_o0_0_S1x256 : S8x256.Slices ![0, 0] S1x256
  shapeCasts_S1x256_S256 : S1x256.ShapeCasts S256
  slices_S2048x8_o0_0_S2048x1 : S2048x8.Slices ![0, 0] S2048x1
  broadcasts_S2048x1_S2048x256 : S2048x1.Broadcasts S2048x256
  slices_S8x256_o1_0_S1x256 : S8x256.Slices ![1, 0] S1x256
  slices_S2048x8_o0_1_S2048x1 : S2048x8.Slices ![0, 1] S2048x1
  slices_S8x256_o2_0_S1x256 : S8x256.Slices ![2, 0] S1x256
  slices_S2048x8_o0_2_S2048x1 : S2048x8.Slices ![0, 2] S2048x1
  slices_S8x256_o3_0_S1x256 : S8x256.Slices ![3, 0] S1x256
  slices_S2048x8_o0_3_S2048x1 : S2048x8.Slices ![0, 3] S2048x1
  slices_S8x256_o4_0_S1x256 : S8x256.Slices ![4, 0] S1x256
  slices_S2048x8_o0_4_S2048x1 : S2048x8.Slices ![0, 4] S2048x1
  slices_S8x256_o5_0_S1x256 : S8x256.Slices ![5, 0] S1x256
  slices_S2048x8_o0_5_S2048x1 : S2048x8.Slices ![0, 5] S2048x1
  slices_S8x256_o6_0_S1x256 : S8x256.Slices ![6, 0] S1x256
  slices_S2048x8_o0_6_S2048x1 : S2048x8.Slices ![0, 6] S2048x1
  slices_S8x256_o7_0_S1x256 : S8x256.Slices ![7, 0] S1x256
  slices_S2048x8_o0_7_S2048x1 : S2048x8.Slices ![0, 7] S2048x1
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  inb_S2048x8_S2048x8_0_0 : ∀ a, (![0, 0] : Fin 2 → Nat) a + S2048x8.size a ≤ S2048x8.size a
  h_S2048x8 : 0 < S2048x8.numel
  dot_S2048x65_S65x8_S2048x8_1_0_0_1_n_n_wf : DotDims.WF S2048x65 S65x8 S2048x8 [1] [0] [0] [1] [] []
  dot_S2048x65_S65x256_S2048x256_1_0_0_1_n_n_wf : DotDims.WF S2048x65 S65x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x65.size a ≤ S262144x65.size a
  hwx0_0 : ∀ i : grid0.Coords, EltTy.bits .f32 = 32 ∨ (Rect.block (s := S262144x65) S2048x65.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x65.size a ≤ S8x65.size a
  hwx0_1 : ∀ i : grid0.Coords, EltTy.bits .f32 = 32 ∨ (Rect.block (s := S8x65) S8x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x65.size a ≤ S256x65.size a
  hwx0_3 : ∀ i : grid0.Coords, EltTy.bits .f32 = 32 ∨ (Rect.block (s := S256x65) S256x65.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S8x256.size a
  hwx0_5 : ∀ i : grid0.Coords, EltTy.bits .f32 = 32 ∨ (Rect.block (s := S8x256) S8x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S8x256.size a
  hwx0_6 : ∀ i : grid0.Coords, EltTy.bits .f32 = 32 ∨ (Rect.block (s := S8x256) S8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S262144x1.size a
  hwx0_7 : ∀ i : grid0.Coords, EltTy.bits .f32 = 32 ∨ (Rect.block (s := S262144x1) S2048x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x8.size a ≤ S262144x8.size a
  hwx0_8 : ∀ i : grid0.Coords, EltTy.bits .f32 = 32 ∨ (Rect.block (s := S262144x8) S2048x8.size (cc0_transform_8 i) (hinb0_8 i)).WholeWords (EltTy.packing .f32)

variable [Facts₀]

def dot_S2048x65_S65x8_S2048x8_1_0_0_1_n_n : DotDims S2048x65 S65x8 S2048x8 where
  lhsContracting := [1]
  rhsContracting := [0]
  lhsNonContracting := [0]
  rhsNonContracting := [1]
  lhsBatch := []
  rhsBatch := []
  wf := dot_S2048x65_S65x8_S2048x8_1_0_0_1_n_n_wf
def dot_S2048x65_S65x256_S2048x256_1_0_0_1_n_n : DotDims S2048x65 S65x256 S2048x256 where
  lhsContracting := [1]
  rhsContracting := [0]
  lhsNonContracting := [0]
  rhsNonContracting := [1]
  lhsBatch := []
  rhsBatch := []
  wf := dot_S2048x65_S65x256_S2048x256_1_0_0_1_n_n_wf

abbrev win0_0 : Pipeline.Window sig grid0 :=
  Pipeline.Window.ofSpec (Memref.whole main_arg0) S2048x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x65.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x65.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S2048x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S2048x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x65 : Shape := ⟨2, ![262144, 65]⟩
abbrev S8x65 : Shape := ⟨2, ![8, 65]⟩
abbrev S8 : Shape := ⟨1, ![8]⟩
abbrev S256x65 : Shape := ⟨2, ![256, 65]⟩
abbrev S256 : Shape := ⟨1, ![256]⟩
abbrev S8x256 : Shape := ⟨2, ![8, 256]⟩
abbrev S65x8 : Shape := ⟨2, ![65, 8]⟩
abbrev S262144x8 : Shape := ⟨2, ![262144, 8]⟩
abbrev S1x8 : Shape := ⟨2, ![1, 8]⟩
abbrev S65x256 : Shape := ⟨2, ![65, 256]⟩
abbrev S262144x256 : Shape := ⟨2, ![262144, 256]⟩
abbrev S1x256 : Shape := ⟨2, ![1, 256]⟩
abbrev S_ : Shape := ⟨0, ![]⟩
abbrev S262144x1 : Shape := ⟨2, ![262144, 1]⟩
abbrev S262144 : Shape := ⟨1, ![262144]⟩

abbrev nBuf : Space → Nat
  | .hbm => 147
  | .vmem => 0
  | .smem => 0
  | _ => 0

abbrev hbmTy0_0 (i : Nat) : BufTy := match i % 128 with
  | 0 => ⟨S262144x65, .f32⟩
  | 1 => ⟨S8x65, .f32⟩
  | 2 => ⟨S8, .f32⟩
  | 3 => ⟨S256x65, .f32⟩
  | 4 => ⟨S256, .f32⟩
  | 5 => ⟨S8x256, .f32⟩
  | 6 => ⟨S8x256, .f32⟩
  | 7 => ⟨S65x8, .f32⟩
  | 8 => ⟨S262144x8, .f32⟩
  | 9 => ⟨S1x8, .f32⟩
  | 10 => ⟨S262144x8, .f32⟩
  | 11 => ⟨S262144x8, .f32⟩
  | 12 => ⟨S65x256, .f32⟩
  | 13 => ⟨S262144x256, .f32⟩
  | 14 => ⟨S1x256, .f32⟩
  | 15 => ⟨S262144x256, .f32⟩
  | 16 => ⟨S262144x256, .f32⟩
  | 17 => ⟨S262144x8, .f32⟩
  | 18 => ⟨S262144x8, .f32⟩
  | 19 => ⟨S_, .f32⟩
  | 20 => ⟨S262144x8, .f32⟩
  | 21 => ⟨S262144x8, .f32⟩
  | 22 => ⟨S_, .f32⟩
  | 23 => ⟨S262144x8, .f32⟩
  | 24 => ⟨S262144x8, .f32⟩
  | 25 => ⟨S262144x256, .f32⟩
  | 26 => ⟨S262144x256, .f32⟩
  | 27 => ⟨S_, .f32⟩
  | 28 => ⟨S262144x256, .f32⟩
  | 29 => ⟨S262144x256, .f32⟩
  | 30 => ⟨S_, .f32⟩
  | 31 => ⟨S262144x256, .f32⟩
  | 32 => ⟨S262144x256, .f32⟩
  | 33 => ⟨S_, .f32⟩
  | 34 => ⟨S262144x256, .f32⟩
  | 35 => ⟨S262144x1, .f32⟩
  | 36 => ⟨S1x256, .f32⟩
  | 37 => ⟨S256, .f32⟩
  | 38 => ⟨S1x256, .f32⟩
  | 39 => ⟨S262144x256, .f32⟩
  | 40 => ⟨S262144x256, .f32⟩
  | 41 => ⟨S262144x256, .f32⟩
  | 42 => ⟨S1x256, .f32⟩
  | 43 => ⟨S256, .f32⟩
  | 44 => ⟨S1x256, .f32⟩
  | 45 => ⟨S262144x256, .f32⟩
  | 46 => ⟨S262144x256, .f32⟩
  | 47 => ⟨S262144x256, .f32⟩
  | 48 => ⟨S262144x1, .f32⟩
  | 49 => ⟨S1x256, .f32⟩
  | 50 => ⟨S256, .f32⟩
  | 51 => ⟨S1x256, .f32⟩
  | 52 => ⟨S262144x256, .f32⟩
  | 53 => ⟨S262144x256, .f32⟩
  | 54 => ⟨S262144x256, .f32⟩
  | 55 => ⟨S1x256, .f32⟩
  | 56 => ⟨S256, .f32⟩
  | 57 => ⟨S1x256, .f32⟩
  | 58 => ⟨S262144x256, .f32⟩
  | 59 => ⟨S262144x256, .f32⟩
  | 60 => ⟨S262144x256, .f32⟩
  | 61 => ⟨S262144x1, .f32⟩
  | 62 => ⟨S1x256, .f32⟩
  | 63 => ⟨S256, .f32⟩
  | 64 => ⟨S1x256, .f32⟩
  | 65 => ⟨S262144x256, .f32⟩
  | 66 => ⟨S262144x256, .f32⟩
  | 67 => ⟨S262144x256, .f32⟩
  | 68 => ⟨S1x256, .f32⟩
  | 69 => ⟨S256, .f32⟩
  | 70 => ⟨S1x256, .f32⟩
  | 71 => ⟨S262144x256, .f32⟩
  | 72 => ⟨S262144x256, .f32⟩
  | 73 => ⟨S262144x256, .f32⟩
  | 74 => ⟨S262144x1, .f32⟩
  | 75 => ⟨S1x256, .f32⟩
  | 76 => ⟨S256, .f32⟩
  | 77 => ⟨S1x256, .f32⟩
  | 78 => ⟨S262144x256, .f32⟩
  | 79 => ⟨S262144x256, .f32⟩
  | 80 => ⟨S262144x256, .f32⟩
  | 81 => ⟨S1x256, .f32⟩
  | 82 => ⟨S256, .f32⟩
  | 83 => ⟨S1x256, .f32⟩
  | 84 => ⟨S262144x256, .f32⟩
  | 85 => ⟨S262144x256, .f32⟩
  | 86 => ⟨S262144x256, .f32⟩
  | 87 => ⟨S262144x1, .f32⟩
  | 88 => ⟨S1x256, .f32⟩
  | 89 => ⟨S256, .f32⟩
  | 90 => ⟨S1x256, .f32⟩
  | 91 => ⟨S262144x256, .f32⟩
  | 92 => ⟨S262144x256, .f32⟩
  | 93 => ⟨S262144x256, .f32⟩
  | 94 => ⟨S1x256, .f32⟩
  | 95 => ⟨S256, .f32⟩
  | 96 => ⟨S1x256, .f32⟩
  | 97 => ⟨S262144x256, .f32⟩
  | 98 => ⟨S262144x256, .f32⟩
  | 99 => ⟨S262144x256, .f32⟩
  | 100 => ⟨S262144x1, .f32⟩
  | 101 => ⟨S1x256, .f32⟩
  | 102 => ⟨S256, .f32⟩
  | 103 => ⟨S1x256, .f32⟩
  | 104 => ⟨S262144x256, .f32⟩
  | 105 => ⟨S262144x256, .f32⟩
  | 106 => ⟨S262144x256, .f32⟩
  | 107 => ⟨S1x256, .f32⟩
  | 108 => ⟨S256, .f32⟩
  | 109 => ⟨S1x256, .f32⟩
  | 110 => ⟨S262144x256, .f32⟩
  | 111 => ⟨S262144x256, .f32⟩
  | 112 => ⟨S262144x256, .f32⟩
  | 113 => ⟨S262144x1, .f32⟩
  | 114 => ⟨S1x256, .f32⟩
  | 115 => ⟨S256, .f32⟩
  | 116 => ⟨S1x256, .f32⟩
  | 117 => ⟨S262144x256, .f32⟩
  | 118 => ⟨S262144x256, .f32⟩
  | 119 => ⟨S262144x256, .f32⟩
  | 120 => ⟨S1x256, .f32⟩
  | 121 => ⟨S256, .f32⟩
  | 122 => ⟨S1x256, .f32⟩
  | 123 => ⟨S262144x256, .f32⟩
  | 124 => ⟨S262144x256, .f32⟩
  | 125 => ⟨S262144x256, .f32⟩
  | 126 => ⟨S262144x1, .f32⟩
  | 127 => ⟨S1x256, .f32⟩
  | _ => ⟨S262144x65, .f32⟩

abbrev hbmTy0_1 (i : Nat) : BufTy := match i % 128 with
  | 0 => ⟨S256, .f32⟩
  | 1 => ⟨S1x256, .f32⟩
  | 2 => ⟨S262144x256, .f32⟩
  | 3 => ⟨S262144x256, .f32⟩
  | 4 => ⟨S262144x256, .f32⟩
  | 5 => ⟨S1x256, .f32⟩
  | 6 => ⟨S256, .f32⟩
  | 7 => ⟨S1x256, .f32⟩
  | 8 => ⟨S262144x256, .f32⟩
  | 9 => ⟨S262144x256, .f32⟩
  | 10 => ⟨S262144x256, .f32⟩
  | 11 => ⟨S262144x256, .f32⟩
  | 12 => ⟨S_, .f32⟩
  | 13 => ⟨S262144x256, .f32⟩
  | 14 => ⟨S262144x256, .f32⟩
  | 15 => ⟨S_, .f32⟩
  | 16 => ⟨S262144, .f32⟩
  | 17 => ⟨S262144x1, .f32⟩
  | 18 => ⟨S262144x8, .f32⟩
  | _ => ⟨S262144x65, .f32⟩

abbrev hbmTy (i : Nat) : BufTy := match i / 128 with
  | 0 => hbmTy0_0 i
  | 1 => hbmTy0_1 i
  | _ => ⟨S262144x65, .f32⟩

abbrev bufTy : (tb : Table) → Fin (tcTables nBuf tb) → BufTy
  | .hbm, ⟨i, _⟩ => hbmTy i
  | _, _ => ⟨S262144x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_cst_4 : Ref sig .tc := ⟨.hbm, 140, rfl⟩
abbrev main_v128 : Ref sig .tc := ⟨.hbm, 141, rfl⟩
abbrev main_v129 : Ref sig .tc := ⟨.hbm, 142, rfl⟩
abbrev main_cst_5 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩

abbrev nD : Nat := 1
abbrev τ : Topo := Topo.v7x

variable {F : FTy → Type} [FloatOps F]

class Facts₀ : Prop where
  transposes_S8x65_S65x8_1_0 : S8x65.Transposes [1, 0] S65x8
  bcast_S8_S1x8_1 : S8.BroadcastsInDim S1x8 (![1] : Fin 1 → Fin S1x8.rank)
  bcast_S1x8_S262144x8_0_1 : S1x8.BroadcastsInDim S262144x8 (![0, 1] : Fin 2 → Fin S262144x8.rank)
  transposes_S256x65_S65x256_1_0 : S256x65.Transposes [1, 0] S65x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x8 : S_.BroadcastsInDim S262144x8 (![] : Fin 0 → Fin S262144x8.rank)
  bcast_S_S262144x256 : S_.BroadcastsInDim S262144x256 (![] : Fin 0 → Fin S262144x256.rank)
  slices_S262144x8_S262144x1_0_0 : S262144x8.Slices ![0, 0] S262144x1
  slices_S8x256_S1x256_0_0 : S8x256.Slices ![0, 0] S1x256
  shapeCasts_S1x256_S256 : S1x256.ShapeCasts S256
  bcast_S262144x1_S262144x256_0_1 : S262144x1.BroadcastsInDim S262144x256 (![0, 1] : Fin 2 → Fin S262144x256.rank)
  slices_S262144x8_S262144x1_0_1 : S262144x8.Slices ![0, 1] S262144x1
  slices_S8x256_S1x256_1_0 : S8x256.Slices ![1, 0] S1x256
  slices_S262144x8_S262144x1_0_2 : S262144x8.Slices ![0, 2] S262144x1
  slices_S8x256_S1x256_2_0 : S8x256.Slices ![2, 0] S1x256
  slices_S262144x8_S262144x1_0_3 : S262144x8.Slices ![0, 3] S262144x1
  slices_S8x256_S1x256_3_0 : S8x256.Slices ![3, 0] S1x256
  slices_S262144x8_S262144x1_0_4 : S262144x8.Slices ![0, 4] S262144x1
  slices_S8x256_S1x256_4_0 : S8x256.Slices ![4, 0] S1x256
  slices_S262144x8_S262144x1_0_5 : S262144x8.Slices ![0, 5] S262144x1
  slices_S8x256_S1x256_5_0 : S8x256.Slices ![5, 0] S1x256
  slices_S262144x8_S262144x1_0_6 : S262144x8.Slices ![0, 6] S262144x1
  slices_S8x256_S1x256_6_0 : S8x256.Slices ![6, 0] S1x256
  slices_S262144x8_S262144x1_0_7 : S262144x8.Slices ![0, 7] S262144x1
  slices_S8x256_S1x256_7_0 : S8x256.Slices ![7, 0] S1x256
  reducesTo_S262144x256_S262144_d1 : S262144x256.ReducesTo [1] S262144
  h_S_ : 0 < S_.numel
  bcast_S262144_S262144x1_0 : S262144.BroadcastsInDim S262144x1 (![0] : Fin 1 → Fin S262144x1.rank)
  dot_S262144x65_S65x8_S262144x8_1_0_0_1_n_n_wf : DotDims.WF S262144x65 S65x8 S262144x8 [1] [0] [0] [1] [] []
  dot_S262144x65_S65x256_S262144x256_1_0_0_1_n_n_wf : DotDims.WF S262144x65 S65x256 S262144x256 [1] [0] [0] [1] [] []

variable [Facts₀]

def dot_S262144x65_S65x8_S262144x8_1_0_0_1_n_n : DotDims S262144x65 S65x8 S262144x8 where
  lhsContracting := [1]
  rhsContracting := [0]
  lhsNonContracting := [0]
  rhsNonContracting := [1]
  lhsBatch := []
  rhsBatch := []
  wf := dot_S262144x65_S65x8_S262144x8_1_0_0_1_n_n_wf
def dot_S262144x65_S65x256_S262144x256_1_0_0_1_n_n : DotDims S262144x65 S65x256 S262144x256 where
  lhsContracting := [1]
  rhsContracting := [0]
  lhsNonContracting := [0]
  rhsNonContracting := [1]
  lhsBatch := []
  rhsBatch := []
  wf := dot_S262144x65_S65x256_S262144x256_1_0_0_1_n_n_wf

class Facts : Prop extends Facts₀ where

variable [Facts]
-- ==== Proof.RowSpec.lean ====
/-
  The mathematics of one row.

  A row of 65 features `x` is scored against two weight tables: eight "select" rows `ws s` with biases `bs s`, and
  256 "data" rows `wd j` with biases `bd j`; a score is the inner product plus the bias. Each select score goes through
  the logistic function σ and enters, at lane `j`, the stage factor σ(select score s) · wm s j + bm s j; the eight
  factors are multiplied in stage order starting from 1. The first result of the row is the sum over the 256 lanes of
  σ(data score j) · (product of the stage factors at j) · c, with c the single-precision value nearest 0.99999; the
  second result is the absolute value of each select score.

  Everything is over the extended reals, every operation the exact one. Nothing here depends on how many rows there
  are or on how they are tiled: both programs are this function applied row by row.
-/
import Idealize.ShloMosaic.PureOps.Ideal
import Idealize.ShloMosaic.Lib.ValueIdx

noncomputable section

namespace Cert.RowSpec

open Idealize.ShloMosaic Idealize.ShloMosaic.ValueIdx

/-- The inner product of a feature row with one weight row, plus that row's bias. -/
def score (x w : Fin 65 → EReal) (b : EReal) : EReal := (∑ k : Fin 65, x k * w k) + b

/-- Stage `s`'s factor at lane `j`: σ(select score s) · wm s j + bm s j. -/
def factor (x : Fin 65 → EReal) (ws : Fin 8 → Fin 65 → EReal) (bs : Fin 8 → EReal) (wm bm : Fin 8 → Fin 256 → EReal)
    (j : Fin 256) (s : Fin 8) : EReal :=
  Ideal.logistic (score x (ws s) (bs s)) * wm s j + bm s j

/-- The product of the eight stage factors at lane `j`, taken from 1 in stage order. -/
def chain (x : Fin 65 → EReal) (ws : Fin 8 → Fin 65 → EReal) (bs : Fin 8 → EReal) (wm bm : Fin 8 → Fin 256 → EReal)
    (j : Fin 256) : EReal :=
  1 * factor x ws bs wm bm j 0 * factor x ws bs wm bm j 1 * factor x ws bs wm bm j 2 * factor x ws bs wm bm j 3
    * factor x ws bs wm bm j 4 * factor x ws bs wm bm j 5 * factor x ws bs wm bm j 6 * factor x ws bs wm bm j 7

/-- The row's first result: the lane sum of σ(data score) · chain · c. -/
def ans (x : Fin 65 → EReal) (ws : Fin 8 → Fin 65 → EReal) (bs : Fin 8 → EReal) (wd : Fin 256 → Fin 65 → EReal)
    (bd : Fin 256 → EReal) (wm bm : Fin 8 → Fin 256 → EReal) : EReal :=
  ∑ j : Fin 256, Ideal.logistic (score x (wd j) (bd j)) * chain x ws bs wm bm j * Ideal.ofBits .f32 0x3F7FFF58#32

/-- The row's second result at stage `s`: the absolute value of the select score. -/
def rel (x : Fin 65 → EReal) (ws : Fin 8 → Fin 65 → EReal) (bs : Fin 8 → EReal) (s : Fin 8) : EReal :=
  max (score x (ws s) (bs s)) (-(score x (ws s) (bs s)))

/-! ## The two result arrays

  262144 rows of features `a0`; the select table `a1` (8 × 65) with biases `a2`; the data table `a3` (256 × 65) with
  biases `a4`; the two stage tables `a5`, `a6` (8 × 256). Row r of each result array is the row specification applied to
  row r of the features. -/

/-- The first result array, 262144 × 1. -/
def ansArr (a0 : (⟨2, ![262144, 65]⟩ : Shape).Idx → EReal) (a1 : (⟨2, ![8, 65]⟩ : Shape).Idx → EReal)
    (a2 : (⟨1, ![8]⟩ : Shape).Idx → EReal) (a3 : (⟨2, ![256, 65]⟩ : Shape).Idx → EReal)
    (a4 : (⟨1, ![256]⟩ : Shape).Idx → EReal) (a5 a6 : (⟨2, ![8, 256]⟩ : Shape).Idx → EReal) :
    (⟨2, ![262144, 1]⟩ : Shape).Idx → EReal := fun i =>
  ans (fun k => a0 (ix2 (i 0) k)) (fun s k => a1 (ix2 s k)) (fun s => a2 (ix1 s)) (fun j k => a3 (ix2 j k))
    (fun j => a4 (ix1 j)) (fun s j => a5 (ix2 s j)) (fun s j => a6 (ix2 s j))

/-- The second result array, 262144 × 8. -/
def relArr (a0 : (⟨2, ![262144, 65]⟩ : Shape).Idx → EReal) (a1 : (⟨2, ![8, 65]⟩ : Shape).Idx → EReal)
    (a2 : (⟨1, ![8]⟩ : Shape).Idx → EReal) : (⟨2, ![262144, 8]⟩ : Shape).Idx → EReal := fun i =>
  rel (fun k => a0 (ix2 (i 0) k)) (fun s k => a1 (ix2 s k)) (fun s => a2 (ix1 s)) (i 1)

end Cert.RowSpec

end
-- ==== Proof.Layout.lean ====
/-
  Reading a re-laid table at an index.

  Both programs spread small tables over a matrix of `a` rows before multiplying lane by lane: column `s` of an
  `a × n` matrix repeated along `b` lanes; row `s` of an `n × b` table repeated down the `a` rows; a bias vector of
  `b` entries repeated down the rows. One program writes these with a slice, casts and a trailing-axis broadcast, the
  other with a slice, a cast and broadcasts that name their axes. Read at row `p`, lane `c`, each of them is the
  table's entry at (p, s), (s, c) or (c): that is all these lemmas say, for any number of rows.
-/
import Idealize.ShloMosaic.Lib.Pipeline.Value
import Idealize.ShloMosaic.Lib.ValueIdx
import Idealize.ShloMosaic.Lib.ValueLayout
import Idealize.ShloMosaic.Lib.KernelVsHost

namespace Cert.Lay

open Idealize.ShloMosaic Idealize.ShloMosaic.ValueIdx

variable {α : Type}

/-! ## Trailing-axis broadcasts -/

/-- Column `s` of an `a × n` matrix, repeated along `b` lanes, at (p, c) is the matrix at (p, s). -/
theorem col_lanes {a n b : ℕ} (s : ℕ) (X : (⟨2, ![a, n]⟩ : Shape).Idx → α)
    (hs : (⟨2, ![a, n]⟩ : Shape).Slices ![0, s] ⟨2, ![a, 1]⟩)
    (hb : (⟨2, ![a, 1]⟩ : Shape).Broadcasts ⟨2, ![a, b]⟩)
    (p : Fin a) (c : Fin b) (k : Fin n) (hk : k.val = s) :
    broadcastTo ⟨2, ![a, b]⟩ (extractStridedSlice ⟨2, ![a, 1]⟩ ![0, s] X hs) hb (ix2 p c) = X (ix2 p k) := by
  have e1 := broadcastTo_apply (extractStridedSlice ⟨2, ![a, 1]⟩ ![0, s] X hs) hb (ix2 p c) (ix2 p (0 : Fin 1)) (fun ax => by
    match ax with
    | ⟨0, _⟩ =>
      show p.val = if a = 1 then 0 else p.val
      split
      · have := p.isLt; omega
      · rfl
    | ⟨1, _⟩ => rfl)
  exact e1.trans (slice2_axis1_apply s X hs p (0 : Fin 1) k (by simp [hk]))

/-- Row `s` of an `n × b` table, cast to a vector and back and repeated down `a` rows, at (p, c) is the table at (s, c). -/
theorem row_rows {a n b : ℕ} (s : ℕ) (T : (⟨2, ![n, b]⟩ : Shape).Idx → α)
    (hs : (⟨2, ![n, b]⟩ : Shape).Slices ![s, 0] ⟨2, ![1, b]⟩)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩)
    (p : Fin a) (c : Fin b) (k : Fin n) (hk : k.val = s) :
    broadcastTo ⟨2, ![a, b]⟩ (shapeCast ⟨2, ![1, b]⟩ (shapeCast ⟨1, ![b]⟩ (extractStridedSlice ⟨2, ![1, b]⟩ ![s, 0] T hs) h1) h2) hb
      (ix2 p c) = T (ix2 k c) := by
  rw [shapeCast_shapeCast]
  exact (broadcastTo_1b_ab_apply _ hb p c).trans (slice2_axis0_apply s T hs (0 : Fin 1) c k (by simp [hk]))

/-- A one-row matrix, cast to its own shape and repeated down `a` rows, at (p, c) is the row at (0, c). -/
theorem bias_rows {a b : ℕ} (v : (⟨2, ![1, b]⟩ : Shape).Idx → α)
    (h : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v h) hb (ix2 p c) = v (ix2 (0 : Fin 1) c) := by
  rw [shapeCast_self]
  exact broadcastTo_1b_ab_apply v hb p c

/-! ## Broadcasts that name their axes -/

/-- A vector of `b` entries laid as a one-row matrix, at (u, c), is the vector at c. -/
theorem vec_as_row {b : ℕ} (v : (⟨1, ![b]⟩ : Shape).Idx → α)
    (hd : (⟨1, ![b]⟩ : Shape).BroadcastsInDim ⟨2, ![1, b]⟩ ![1]) (u : Fin 1) (c : Fin b) :
    broadcastInDim ⟨2, ![1, b]⟩ ![1] hd v (ix2 u c) = v (ix1 c) :=
  broadcastInDim_apply ![1] hd v (ix2 u c) (ix1 c) (fun ax => by
    match ax with
    | ⟨0, _⟩ =>
      show c.val = if b = 1 then 0 else c.val
      split
      · have := c.isLt; omega
      · rfl)

/-- Column `s` of an `a × n` matrix, repeated along `b` lanes by a broadcast naming both axes, at (p, c) is the matrix at (p, s). -/
theorem hcol_lanes {a n b : ℕ} (s : ℕ) (X : (⟨2, ![a, n]⟩ : Shape).Idx → α)
    (hs : (⟨2, ![a, n]⟩ : Shape).Slices ![0, s] ⟨2, ![a, 1]⟩)
    (hb : (⟨2, ![a, 1]⟩ : Shape).BroadcastsInDim ⟨2, ![a, b]⟩ ![0, 1])
    (p : Fin a) (c : Fin b) (k : Fin n) (hk : k.val = s) :
    broadcastInDim ⟨2, ![a, b]⟩ ![0, 1] hb (extractStridedSlice ⟨2, ![a, 1]⟩ ![0, s] X hs) (ix2 p c) = X (ix2 p k) := by
  have e1 := broadcastInDim_apply ![0, 1] hb (extractStridedSlice ⟨2, ![a, 1]⟩ ![0, s] X hs) (ix2 p c) (ix2 p (0 : Fin 1)) (fun ax => by
    match ax with
    | ⟨0, _⟩ =>
      show p.val = if a = 1 then 0 else p.val
      split
      · have := p.isLt; omega
      · rfl
    | ⟨1, _⟩ => rfl)
  exact e1.trans (slice2_axis1_apply s X hs p (0 : Fin 1) k (by simp [hk]))

/-- Row `s` of an `n × b` table, cast to a vector, laid as a one-row matrix and repeated down `a` rows, at (p, c) is the
    table at (s, c). -/
theorem hrow_rows {a n b : ℕ} (s : ℕ) (T : (⟨2, ![n, b]⟩ : Shape).Idx → α)
    (hs : (⟨2, ![n, b]⟩ : Shape).Slices ![s, 0] ⟨2, ![1, b]⟩)
    (h1 : (⟨2, ![1, b]⟩ : Shape).ShapeCasts ⟨1, ![b]⟩)
    (hd : (⟨1, ![b]⟩ : Shape).BroadcastsInDim ⟨2, ![1, b]⟩ ![1])
    (hb : (⟨2, ![1, b]⟩ : Shape).BroadcastsInDim ⟨2, ![a, b]⟩ ![0, 1])
    (p : Fin a) (c : Fin b) (k : Fin n) (hk : k.val = s) :
    broadcastInDim ⟨2, ![a, b]⟩ ![0, 1] hb
      (broadcastInDim ⟨2, ![1, b]⟩ ![1] hd (shapeCast ⟨1, ![b]⟩ (extractStridedSlice ⟨2, ![1, b]⟩ ![s, 0] T hs) h1)) (ix2 p c)
      = T (ix2 k c) :=
  (broadcastInDim_oneRow_apply hb _ p c).trans <| (vec_as_row _ hd 0 c).trans <|
    (shapeCast_1a_a_apply _ h1 c).trans (slice2_axis0_apply s T hs (0 : Fin 1) c k (by simp [hk]))

/-- A bias vector laid as a one-row matrix and repeated down `a` rows, at (p, c), is the vector at c. -/
theorem hbias_rows {a b : ℕ} (v : (⟨1, ![b]⟩ : Shape).Idx → α)
    (hd : (⟨1, ![b]⟩ : Shape).BroadcastsInDim ⟨2, ![1, b]⟩ ![1])
    (hb : (⟨2, ![1, b]⟩ : Shape).BroadcastsInDim ⟨2, ![a, b]⟩ ![0, 1]) (p : Fin a) (c : Fin b) :
    broadcastInDim ⟨2, ![a, b]⟩ ![0, 1] hb (broadcastInDim ⟨2, ![1, b]⟩ ![1] hd v) (ix2 p c) = v (ix1 c) :=
  (broadcastInDim_oneRow_apply hb _ p c).trans (vec_as_row v hd 0 c)

end Cert.Lay
-- ==== Proof.KernelRow.lean ====
/-
  One grid point's block, row by row.

  At a grid point the body sees 2048 feature rows `X` and the whole parameter tables. Its two products contract the
  65 features against a transposed weight table, into a zero accumulator, after a change of float format that is the
  identity on the extended reals: entry (p, n) is the inner product of row p of `X` with row n of the table. Adding the
  bias row gives the scores; the rest of the body is lane-by-lane arithmetic on tables spread over the rows and a sum
  over the 256 lanes. So row p of each block the body writes is the row specification applied to row p of `X`.
-/
import proofs.«163921_j79121887527144_1_alg».proof.Proof.Gen.KernelIdeal.Value
import proofs.«163921_j79121887527144_1_alg».proof.Proof.RowSpec
import proofs.«163921_j79121887527144_1_alg».proof.Proof.Layout
import Idealize.ShloMosaic.PureOps.Ideal.Laws
import Idealize.ShloMosaic.Lib.IdealHost

noncomputable section

namespace Cert.KernelRow

open Cert.KernelIdeal Cert.KernelIdeal.Gen Idealize.ShloMosaic Idealize.ShloMosaic.ValueIdx

/-- The product against the eight select rows. -/
abbrev D8 : DotDims S2048x65 S65x8 S2048x8 := dot_S2048x65_S65x8_S2048x8_1_0_0_1_n_n
/-- The product against the 256 data rows. -/
abbrev D256 : DotDims S2048x65 S65x256 S2048x256 := dot_S2048x65_S65x256_S2048x256_1_0_0_1_n_n

/-! ## The two products at an entry -/

/-! The operand coordinates of the two products: the output's row on the left operand's rows, its column on the right
    operand's columns, the contraction index on the 65 features. -/

theorem D8_lhs0 (i : S2048x8.Idx) (q : D8.contr.Idx) : (D8.lhsIdx i q 0).val = (i 0).val := by
  unfold DotDims.lhsIdx
  rw [dif_neg (show ¬(0 : Fin S2048x65.rank) ∈ D8.lhsBatch by decide), dif_pos (show (0 : Fin S2048x65.rank) ∈ D8.lhsNonContracting by decide)]
  rfl
theorem D8_lhs1 (i : S2048x8.Idx) (q : D8.contr.Idx) : (D8.lhsIdx i q 1).val = (q ⟨0, by decide⟩).val :=
  D8.lhsIdx_val_of_single rfl i q
theorem D8_rhs0 (i : S2048x8.Idx) (q : D8.contr.Idx) : (D8.rhsIdx i q 0).val = (q ⟨0, by decide⟩).val :=
  D8.rhsIdx_val_of_single rfl i q
theorem D8_rhs1 (i : S2048x8.Idx) (q : D8.contr.Idx) : (D8.rhsIdx i q 1).val = (i 1).val := by
  unfold DotDims.rhsIdx
  rw [dif_neg (show ¬(1 : Fin S65x8.rank) ∈ D8.rhsBatch by decide), dif_pos (show (1 : Fin S65x8.rank) ∈ D8.rhsNonContracting by decide)]
  rfl

theorem D256_lhs0 (i : S2048x256.Idx) (q : D256.contr.Idx) : (D256.lhsIdx i q 0).val = (i 0).val := by
  unfold DotDims.lhsIdx
  rw [dif_neg (show ¬(0 : Fin S2048x65.rank) ∈ D256.lhsBatch by decide), dif_pos (show (0 : Fin S2048x65.rank) ∈ D256.lhsNonContracting by decide)]
  rfl
theorem D256_lhs1 (i : S2048x256.Idx) (q : D256.contr.Idx) : (D256.lhsIdx i q 1).val = (q ⟨0, by decide⟩).val :=
  D256.lhsIdx_val_of_single rfl i q
theorem D256_rhs0 (i : S2048x256.Idx) (q : D256.contr.Idx) : (D256.rhsIdx i q 0).val = (q ⟨0, by decide⟩).val :=
  D256.rhsIdx_val_of_single rfl i q
theorem D256_rhs1 (i : S2048x256.Idx) (q : D256.contr.Idx) : (D256.rhsIdx i q 1).val = (i 1).val := by
  unfold DotDims.rhsIdx
  rw [dif_neg (show ¬(1 : Fin S65x256.rank) ∈ D256.rhsBatch by decide), dif_pos (show (1 : Fin S65x256.rank) ∈ D256.rhsNonContracting by decide)]
  rfl

/-- Entry (p, s) of the features times the transposed select table is ⟨row p, select row s⟩. -/
theorem dot8_at (X : FVec Ideal S2048x65 .f32) (W : FVec Ideal S8x65 .f32) (p : Fin 2048) (s : Fin 8) :
    matmul D8 none (truncf .bf16 X bitsLt_bf16_f32)
        (transpose S65x8 [1, 0] (truncf .bf16 W bitsLt_bf16_f32) transposes_S8x65_p1_0_S65x8)
        (constant S2048x8 .f32 0x00000000#32) (ix2 p s)
      = ∑ k : Fin 65, X (ix2 p k) * W (ix2 s k) := by
  refine (Ideal.matmul_constant_zero_apply D8 none _ _ (ix2 p s)).trans ?_
  rw [← Equiv.sum_comp (contrEquiv1 D8 65 rfl rfl).symm]
  refine Finset.sum_congr rfl fun k _ => ?_
  have hk := contrEquiv1_symm_val D8 65 rfl rfl k
  have el : D8.lhsIdx (ix2 p s) ((contrEquiv1 D8 65 rfl rfl).symm k) = ix2 p k := funext fun a => Fin.ext (by
    match a with
    | ⟨0, _⟩ => exact D8_lhs0 _ _
    | ⟨1, _⟩ => exact (D8_lhs1 _ _).trans hk)
  have er : D8.rhsIdx (ix2 p s) ((contrEquiv1 D8 65 rfl rfl).symm k) = ix2 k s := funext fun a => Fin.ext (by
    match a with
    | ⟨0, _⟩ => exact (D8_rhs0 _ _).trans hk
    | ⟨1, _⟩ => exact D8_rhs1 _ _)
  rw [el, er]
  exact congrArg (X (ix2 p k) * ·) (transpose_ix2_apply _ transposes_S8x65_p1_0_S65x8 k s)

/-- Entry (p, j) of the features times the transposed data table is ⟨row p, data row j⟩. -/
theorem dot256_at (X : FVec Ideal S2048x65 .f32) (W : FVec Ideal S256x65 .f32) (p : Fin 2048) (j : Fin 256) :
    matmul D256 none (truncf .bf16 X bitsLt_bf16_f32)
        (transpose S65x256 [1, 0] (truncf .bf16 W bitsLt_bf16_f32) transposes_S256x65_p1_0_S65x256)
        (constant S2048x256 .f32 0x00000000#32) (ix2 p j)
      = ∑ k : Fin 65, X (ix2 p k) * W (ix2 j k) := by
  refine (Ideal.matmul_constant_zero_apply D256 none _ _ (ix2 p j)).trans ?_
  rw [← Equiv.sum_comp (contrEquiv1 D256 65 rfl rfl).symm]
  refine Finset.sum_congr rfl fun k _ => ?_
  have hk := contrEquiv1_symm_val D256 65 rfl rfl k
  have el : D256.lhsIdx (ix2 p j) ((contrEquiv1 D256 65 rfl rfl).symm k) = ix2 p k := funext fun a => Fin.ext (by
    match a with
    | ⟨0, _⟩ => exact D256_lhs0 _ _
    | ⟨1, _⟩ => exact (D256_lhs1 _ _).trans hk)
  have er : D256.rhsIdx (ix2 p j) ((contrEquiv1 D256 65 rfl rfl).symm k) = ix2 k j := funext fun a => Fin.ext (by
    match a with
    | ⟨0, _⟩ => exact (D256_rhs0 _ _).trans hk
    | ⟨1, _⟩ => exact D256_rhs1 _ _)
  rw [el, er]
  exact congrArg (X (ix2 p k) * ·) (transpose_ix2_apply _ transposes_S256x65_p1_0_S65x256 k j)

/-! ## The scores -/

/-- The select scores of the block: entry (p, s) is the score of row p against select row s. -/
theorem select_score_at (v0 : Vec Ideal S2048x65 .f32) (v2 : Vec Ideal S8x65 .f32) (v6 : Vec Ideal S1x8 .f32)
    (p : Fin 2048) (s : Fin 8) :
    k0_pay4 v0 v2 v6 (ix2 p s)
      = RowSpec.score (fun k => v0 (ix2 p k)) (fun k => v2 (ix2 s k)) (v6 (ix2 (0 : Fin 1) s)) :=
  congrArg₂ (· + ·) (dot8_at v0 v2 p s) (Lay.bias_rows v6 shapeCasts_S1x8_S1x8 broadcasts_S1x8_S2048x8 p s)

/-- The data gates of the block: entry (p, j) is σ of the score of row p against data row j. -/
theorem data_gate_at (v0 : Vec Ideal S2048x65 .f32) (v4 : Vec Ideal S256x65 .f32) (v8 : Vec Ideal S1x256 .f32)
    (p : Fin 2048) (j : Fin 256) :
    k0_pay6 v0 v4 v8 (ix2 p j)
      = Ideal.logistic (RowSpec.score (fun k => v0 (ix2 p k)) (fun k => v4 (ix2 j k)) (v8 (ix2 (0 : Fin 1) j))) :=
  congrArg Ideal.logistic
    (congrArg₂ (· + ·) (dot256_at v0 v4 p j) (Lay.bias_rows v8 shapeCasts_S1x256_S1x256 broadcasts_S1x256_S2048x256 p j))

/-- The logistic function applied lane by lane, read at an index. -/
theorem logistic_at {s : Shape} {φ : FTy} (x : FVec Ideal s φ) (i : s.Idx) : logistic x i = Ideal.logistic (x i) := rfl

/-! ## A stage factor, read at a row and a lane -/

/-- Stage `s`: column `s` of the select gates `G` spread along the lanes, times row `s` of `A` spread down the rows,
    plus row `s` of `B` spread down the rows, read at (p, j), is G (p, s) · A (s, j) + B (s, j). -/
theorem stage_at (s : ℕ) (k : Fin 8) (hk : k.val = s) (G : FVec Ideal S2048x8 .f32) (A B : FVec Ideal S8x256 .f32)
    (hc : S2048x8.Slices ![0, s] S2048x1) (hr : S8x256.Slices ![s, 0] S1x256) (p : Fin 2048) (j : Fin 256) :
    addf (mulf (broadcastTo S2048x256 (extractStridedSlice S2048x1 ![0, s] G hc) broadcasts_S2048x1_S2048x256)
          (broadcastTo S2048x256 (shapeCast S1x256 (shapeCast S256 (extractStridedSlice S1x256 ![s, 0] A hr) shapeCasts_S1x256_S256) shapeCasts_S256_S1x256) broadcasts_S1x256_S2048x256))
        (broadcastTo S2048x256 (shapeCast S1x256 (shapeCast S256 (extractStridedSlice S1x256 ![s, 0] B hr) shapeCasts_S1x256_S256) shapeCasts_S256_S1x256) broadcasts_S1x256_S2048x256)
        (ix2 p j)
      = G (ix2 p k) * A (ix2 k j) + B (ix2 k j) :=
  congrArg₂ (· + ·)
    (congrArg₂ (· * ·) (Lay.col_lanes s G hc broadcasts_S2048x1_S2048x256 p j k hk)
      (Lay.row_rows s A hr shapeCasts_S1x256_S256 shapeCasts_S256_S1x256 broadcasts_S1x256_S2048x256 p j k hk))
    (Lay.row_rows s B hr shapeCasts_S1x256_S256 shapeCasts_S256_S1x256 broadcasts_S1x256_S2048x256 p j k hk)

/-! ## The block's two payloads -/

/-- Row p of the first output block is the row specification's first result of row p of the feature block. -/
theorem ans_block (P0 : Vec Ideal S2048x65 .f32) (P1 : Vec Ideal S256x65 .f32) (P2 : Vec Ideal S1x256 .f32)
    (P3 : Vec Ideal S8x65 .f32) (P4 : Vec Ideal S1x8 .f32) (P5 P6 : Vec Ideal S8x256 .f32) (p : Fin 2048) (u : Fin 1) :
    Value.E7 P0 P1 P2 P3 P4 P5 P6 (ix2 p u)
      = RowSpec.ans (fun k => P0 (ix2 p k)) (fun s k => P3 (ix2 s k)) (fun s => P4 (ix2 (0 : Fin 1) s))
          (fun j k => P1 (ix2 j k)) (fun j => P2 (ix2 (0 : Fin 1) j)) (fun s j => P5 (ix2 s j)) (fun s j => P6 (ix2 s j)) := by
  refine (Ideal.multiReduction_add_single _ 0x00000000#32 reduces_S2048x256_S2048 (.inl rfl) rfl (Value.ix7_0 (ix2 p u))).trans ?_
  unfold RowSpec.ans
  refine Finset.sum_congr rfl fun (j : Fin 256) _ => ?_
  have hi : reduces_S2048x256_S2048.lift (Value.ix7_0 (ix2 p u)) j = ix2 p j :=
    funext fun a => Fin.ext (by match a with | ⟨0, _⟩ => rfl | ⟨1, _⟩ => rfl)
  beta_reduce
  rw [hi]
  simp only [mulf_apply, broadcast_apply]
  rw [stage_at 0 0 rfl, stage_at 1 1 rfl, stage_at 2 2 rfl, stage_at 3 3 rfl, stage_at 4 4 rfl, stage_at 5 5 rfl,
    stage_at 6 6 rfl, stage_at 7 7 rfl, data_gate_at]
  simp only [logistic_at, select_score_at, Ideal.ofBits_def, Ideal.ofBits_one_f32]
  rfl

/-- Entry (p, s) of the second output block is the absolute value of the score of row p against select row s. -/
theorem rel_block (v0 : Vec Ideal S2048x65 .f32) (v2 : Vec Ideal S8x65 .f32) (v6 : Vec Ideal S1x8 .f32)
    (p : Fin 2048) (s : Fin 8) :
    k0_pay2 (k0_pay4 v0 v2 v6) (ix2 p s)
      = RowSpec.rel (fun k => v0 (ix2 p k)) (fun s k => v2 (ix2 s k)) (fun s => v6 (ix2 (0 : Fin 1) s)) s := by
  show max (k0_pay4 v0 v2 v6 (ix2 p s)) (-(k0_pay4 v0 v2 v6 (ix2 p s))) = _
  rw [select_score_at]
  rfl

/-! ## What the body leaves in the two output buffers

  Every load and both stores go through the whole of their buffers, so each output buffer after the body holds its one
  store's payload of the loaded blocks themselves. -/

theorem hz : (![0, 0] : Fin 2 → Nat) = fun _ => 0 := funext fun a => by fin_cases a <;> rfl

theorem out0_7_eq (x0 : Vec Ideal S2048x65 .f32) (x1 : Vec Ideal S8x65 .f32) (x2 : Vec Ideal S1x8 .f32)
    (x3 : Vec Ideal S256x65 .f32) (x4 : Vec Ideal S1x256 .f32) (x5 x6 : Vec Ideal S8x256 .f32) :
    out0_7 x0 x1 x2 x3 x4 x5 x6 = Value.E7 x0 x3 x4 x1 x2 x5 x6 := by
  unfold out0_7
  simp only [View.ld_unit_zero (S := S2048x65) hz, View.ld_unit_zero (S := S8x65) hz, View.ld_unit_zero (S := S1x8) hz,
    View.ld_unit_zero (S := S256x65) hz, View.ld_unit_zero (S := S1x256) hz, View.ld_unit_zero (S := S8x256) hz]
  exact funext fun y => Value.canon7_eq x0 x3 x4 x1 x2 x5 x6 y

theorem out0_8_eq (x0 : Vec Ideal S2048x65 .f32) (x1 : Vec Ideal S8x65 .f32) (x2 : Vec Ideal S1x8 .f32)
    (x3 : Vec Ideal S256x65 .f32) (x4 : Vec Ideal S1x256 .f32) (x5 x6 : Vec Ideal S8x256 .f32) :
    out0_8 x0 x1 x2 x3 x4 x5 x6 = k0_pay2 (k0_pay4 x0 x1 x2) := by
  unfold out0_8
  rw [View.canon_unit_zero hz]
  simp only [View.ld_unit_zero (S := S2048x65) hz, View.ld_unit_zero (S := S8x65) hz, View.ld_unit_zero (S := S1x8) hz]

/-! ## One point's blocks against the arrays

  Stated over variables: blocks `x` and arrays `a` that agree where the body reads them — row `y 0` of the feature
  block is row `i 0` of the feature array, the parameter blocks are the parameter arrays (the two bias rows being the
  bias vectors laid as one row). Then the output block at `y` is the result array at `i`. -/

theorem point_ans (x0 : Vec Ideal S2048x65 .f32) (x1 : Vec Ideal S8x65 .f32) (x2 : Vec Ideal S1x8 .f32)
    (x3 : Vec Ideal S256x65 .f32) (x4 : Vec Ideal S1x256 .f32) (x5 x6 : Vec Ideal S8x256 .f32)
    (a0 : S262144x65.Idx → EReal) (a1 : S8x65.Idx → EReal) (a2 : S8.Idx → EReal) (a3 : S256x65.Idx → EReal)
    (a4 : S256.Idx → EReal) (a5 a6 : S8x256.Idx → EReal) (y : S2048x1.Idx) (i : S262144x1.Idx)
    (h0 : ∀ k : Fin 65, x0 (ix2 (y 0) k) = a0 (ix2 (i 0) k))
    (h1 : ∀ (s : Fin 8) (k : Fin 65), x1 (ix2 s k) = a1 (ix2 s k))
    (h2 : ∀ s : Fin 8, x2 (ix2 (0 : Fin 1) s) = a2 (ix1 s))
    (h3 : ∀ (j : Fin 256) (k : Fin 65), x3 (ix2 j k) = a3 (ix2 j k))
    (h4 : ∀ j : Fin 256, x4 (ix2 (0 : Fin 1) j) = a4 (ix1 j))
    (h5 : ∀ (s : Fin 8) (j : Fin 256), x5 (ix2 s j) = a5 (ix2 s j))
    (h6 : ∀ (s : Fin 8) (j : Fin 256), x6 (ix2 s j) = a6 (ix2 s j)) :
    out0_7 x0 x1 x2 x3 x4 x5 x6 y = RowSpec.ansArr a0 a1 a2 a3 a4 a5 a6 i := by
  rw [out0_7_eq]
  obtain ⟨p, u, rfl⟩ : ∃ (p : Fin 2048) (u : Fin 1), y = ix2 p u := ⟨y 0, y 1, eq_ix2 y⟩
  rw [ans_block]
  unfold RowSpec.ansArr
  have h0' : (fun k => x0 (ix2 p k)) = fun k => a0 (ix2 (i 0) k) := funext h0
  rw [h0']
  simp only [h1, h2, h3, h4, h5, h6]

theorem point_rel (x0 : Vec Ideal S2048x65 .f32) (x1 : Vec Ideal S8x65 .f32) (x2 : Vec Ideal S1x8 .f32)
    (x3 : Vec Ideal S256x65 .f32) (x4 : Vec Ideal S1x256 .f32) (x5 x6 : Vec Ideal S8x256 .f32)
    (a0 : S262144x65.Idx → EReal) (a1 : S8x65.Idx → EReal) (a2 : S8.Idx → EReal) (y : S2048x8.Idx) (i : S262144x8.Idx)
    (hi : (i 1).val = (y 1).val)
    (h0 : ∀ k : Fin 65, x0 (ix2 (y 0) k) = a0 (ix2 (i 0) k))
    (h1 : ∀ (s : Fin 8) (k : Fin 65), x1 (ix2 s k) = a1 (ix2 s k))
    (h2 : ∀ s : Fin 8, x2 (ix2 (0 : Fin 1) s) = a2 (ix1 s)) :
    out0_8 x0 x1 x2 x3 x4 x5 x6 y = RowSpec.relArr a0 a1 a2 i := by
  rw [out0_8_eq]
  obtain ⟨p, s, rfl⟩ : ∃ (p : Fin 2048) (s : Fin 8), y = ix2 p s := ⟨y 0, y 1, eq_ix2 y⟩
  rw [rel_block]
  unfold RowSpec.relArr
  have h0' : (fun k => x0 (ix2 p k)) = fun k => a0 (ix2 (i 0) k) := funext h0
  have hs : (i 1 : Fin 8) = s := Fin.ext hi
  rw [h0', hs]
  simp only [h1, h2]

end Cert.KernelRow

end
-- ==== Proof.KernelArr.lean ====
/-
  From the grid's blocks to the whole arrays.

  The grid has 128 points. At point t the feature window hands the body rows 2048·t … 2048·t + 2047 of the feature
  array; the six parameter windows hand it the whole parameter arrays at every point (the two biases as one-row
  matrices, which the host reshaped the bias vectors into before the call); the two output windows write back rows
  2048·t … 2048·t + 2047 of the result arrays. So what point t writes back is block t of the row-by-row result arrays,
  and since every row r lies in the block of point r / 2048 the arrays end holding exactly those.
-/
import proofs.«163921_j79121887527144_1_alg».proof.Proof.KernelRow
import Idealize.ShloMosaic.Lib.StableHlo.Run

noncomputable section

namespace Cert.KernelArr

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps over the grid -/

/-- The feature window and the two output windows step one block of rows per point; every parameter window stays at
    block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The two bias rows the host laid out before the call -/

theorem bias8 (c : Dev nD) (s : Fin 8) :
    V m c main_v0 (ix2 (0 : Fin 1) s) = m ((c : Thread nD τ).loc main_arg2) (ix1 s) := by
  have e : (V m c main_v0 : S1x8.Idx → EReal) = shapeCast S1x8 (m ((c : Thread nD τ).loc main_arg2)) shapeCasts_S8_S1x8 := by
    dsimp only [Gen.V, Gen.hostOps0]; after_results; rfl
  rw [e]
  exact shapeCast_a_1a_apply _ shapeCasts_S8_S1x8 0 s

theorem bias256 (c : Dev nD) (j : Fin 256) :
    V m c main_v1 (ix2 (0 : Fin 1) j) = m ((c : Thread nD τ).loc main_arg4) (ix1 j) := by
  have e : (V m c main_v1 : S1x256.Idx → EReal) = shapeCast S1x256 (m ((c : Thread nD τ).loc main_arg4)) shapeCasts_S256_S1x256 := by
    dsimp only [Gen.V, Gen.hostOps0]; after_results; rfl
  rw [e]
  exact shapeCast_a_1a_apply _ shapeCasts_S256_S1x256 0 j

/-! ## The input blocks at a point are the arrays, read where the point's rectangle says -/

theorem blk0 (c : Dev nD) (t : Fin cfg0.N) (p : Fin 2048) (k : Fin 65) (r : Fin 262144) (hr : r.val = t.val * 2048 + p.val) :
    iblk m c 0 t (ix2 p k) = m ((c : Thread nD τ).loc main_arg0) (ix2 r k) := by
  obtain ⟨e00, e01, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = r.val; omega
  | ⟨1, _⟩ => show win0_0.index t (1 : Fin 2) * 65 + 1 * k.val = k.val; omega

theorem blk1 (c : Dev nD) (t : Fin cfg0.N) (s : Fin 8) (k : Fin 65) :
    iblk m c 1 t (ix2 s k) = m ((c : Thread nD τ).loc main_arg1) (ix2 s k) := by
  obtain ⟨-, -, e0, e1, -⟩ := idx_facts t
  show V m c main_arg1 (((cfg0.win 1).blk t).view.emb (ix2 s k)) = _
  rw [V_main_arg1]
  refine congrArg _ (funext fun a => Fin.ext ?_)
  match a with
  | ⟨0, _⟩ => show win0_1.index t (0 : Fin 2) * 8 + 1 * s.val = s.val; omega
  | ⟨1, _⟩ => show win0_1.index t (1 : Fin 2) * 65 + 1 * k.val = k.val; omega

theorem blk2 (c : Dev nD) (t : Fin cfg0.N) (s : Fin 8) :
    iblk m c 2 t (ix2 (0 : Fin 1) s) = m ((c : Thread nD τ).loc main_arg2) (ix1 s) := by
  obtain ⟨-, -, -, -, e0, e1, -⟩ := idx_facts t
  show V m c main_v0 (((cfg0.win 2).blk t).view.emb (ix2 (0 : Fin 1) s)) = _
  refine Eq.trans (congrArg _ (funext fun a => Fin.ext ?_)) (bias8 m c s)
  match a with
  | ⟨0, _⟩ => show win0_2.index t (0 : Fin 2) * 1 + 1 * 0 = 0; omega
  | ⟨1, _⟩ => show win0_2.index t (1 : Fin 2) * 8 + 1 * s.val = s.val; omega

theorem blk3 (c : Dev nD) (t : Fin cfg0.N) (j : Fin 256) (k : Fin 65) :
    iblk m c 3 t (ix2 j k) = m ((c : Thread nD τ).loc main_arg3) (ix2 j k) := by
  obtain ⟨-, -, -, -, -, -, e0, e1, -⟩ := idx_facts t
  show V m c main_arg3 (((cfg0.win 3).blk t).view.emb (ix2 j k)) = _
  rw [V_main_arg3]
  refine congrArg _ (funext fun a => Fin.ext ?_)
  match a with
  | ⟨0, _⟩ => show win0_3.index t (0 : Fin 2) * 256 + 1 * j.val = j.val; omega
  | ⟨1, _⟩ => show win0_3.index t (1 : Fin 2) * 65 + 1 * k.val = k.val; omega

theorem blk4 (c : Dev nD) (t : Fin cfg0.N) (j : Fin 256) :
    iblk m c 4 t (ix2 (0 : Fin 1) j) = m ((c : Thread nD τ).loc main_arg4) (ix1 j) := by
  obtain ⟨-, -, -, -, -, -, -, -, e0, e1, -⟩ := idx_facts t
  show V m c main_v1 (((cfg0.win 4).blk t).view.emb (ix2 (0 : Fin 1) j)) = _
  refine Eq.trans (congrArg _ (funext fun a => Fin.ext ?_)) (bias256 m c j)
  match a with
  | ⟨0, _⟩ => show win0_4.index t (0 : Fin 2) * 1 + 1 * 0 = 0; omega
  | ⟨1, _⟩ => show win0_4.index t (1 : Fin 2) * 256 + 1 * j.val = j.val; omega

theorem blk5 (c : Dev nD) (t : Fin cfg0.N) (s : Fin 8) (j : Fin 256) :
    iblk m c 5 t (ix2 s j) = m ((c : Thread nD τ).loc main_arg5) (ix2 s j) := by
  obtain ⟨-, -, -, -, -, -, -, -, -, -, e0, e1, -⟩ := idx_facts t
  show V m c main_arg5 (((cfg0.win 5).blk t).view.emb (ix2 s j)) = _
  rw [V_main_arg5]
  refine congrArg _ (funext fun a => Fin.ext ?_)
  match a with
  | ⟨0, _⟩ => show win0_5.index t (0 : Fin 2) * 8 + 1 * s.val = s.val; omega
  | ⟨1, _⟩ => show win0_5.index t (1 : Fin 2) * 256 + 1 * j.val = j.val; omega

theorem blk6 (c : Dev nD) (t : Fin cfg0.N) (s : Fin 8) (j : Fin 256) :
    iblk m c 6 t (ix2 s j) = m ((c : Thread nD τ).loc main_arg6) (ix2 s j) := by
  obtain ⟨-, -, -, -, -, -, -, -, -, -, -, -, e0, e1, -⟩ := idx_facts t
  show V m c main_arg6 (((cfg0.win 6).blk t).view.emb (ix2 s j)) = _
  rw [V_main_arg6]
  refine congrArg _ (funext fun a => Fin.ext ?_)
  match a with
  | ⟨0, _⟩ => show win0_6.index t (0 : Fin 2) * 8 + 1 * s.val = s.val; omega
  | ⟨1, _⟩ => show win0_6.index t (1 : Fin 2) * 256 + 1 * j.val = j.val; omega

/-! ## What a point writes back -/

/-- The two result arrays, of the argument arrays as the program was started with them. -/
abbrev ansOf (c : Dev nD) : S262144x1.Idx → EReal :=
  RowSpec.ansArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
abbrev relOf (c : Dev nD) : S262144x8.Idx → EReal :=
  RowSpec.relArr (m ((c : Thread nD τ).loc main_arg0)) (m ((c : Thread nD τ).loc main_arg1)) (m ((c : Thread nD τ).loc main_arg2))

/-- Point t writes back block t of the first result array. -/
theorem flushed7_eq (c : Dev nD) (t : Fin cfg0.N) :
    (dats m 0 c).flushed 7 t = ((cfg0.win 7).blk t).view.read (Elt Ideal) (ansOf m c) := by
  rw [Value.flushed7]
  obtain ⟨-, -, -, -, -, -, -, -, -, -, -, -, -, -, e70, e71, -⟩ := idx_facts t
  funext y
  show out0_7 (iblk m c 0 t) (iblk m c 1 t) (iblk m c 2 t) (iblk m c 3 t) (iblk m c 4 t) (iblk m c 5 t) (iblk m c 6 t) y
      = ansOf m c (((cfg0.win 7).blk t).view.emb y)
  have hy0 : (y 0).val < 2048 := (y 0).isLt
  have ht : t.val < 128 := t.isLt
  refine KernelRow.point_ans _ _ _ _ _ _ _ _ _ _ _ _ _ _ y _ (fun k => ?_) (blk1 m c t) (blk2 m c t) (blk3 m c t) (blk4 m c t)
    (blk5 m c t) (blk6 m c t)
  refine blk0 m c t (y 0) k _ ?_
  show win0_7.index t (0 : Fin 2) * 2048 + 1 * (y 0).val = t.val * 2048 + (y 0).val
  omega

/-- Point t writes back block t of the second result array. -/
theorem flushed8_eq (c : Dev nD) (t : Fin cfg0.N) :
    (dats m 0 c).flushed 8 t = ((cfg0.win 8).blk t).view.read (Elt Ideal) (relOf m c) := by
  rw [Value.flushed8]
  obtain ⟨-, -, -, -, -, -, -, -, -, -, -, -, -, -, -, -, e80, e81⟩ := idx_facts t
  funext y
  show out0_8 (iblk m c 0 t) (iblk m c 1 t) (iblk m c 2 t) (iblk m c 3 t) (iblk m c 4 t) (iblk m c 5 t) (iblk m c 6 t) y
      = relOf m c (((cfg0.win 8).blk t).view.emb y)
  have hy0 : (y 0).val < 2048 := (y 0).isLt
  have hy1 : (y 1).val < 8 := (y 1).isLt
  refine KernelRow.point_rel _ _ _ _ _ _ _ _ _ _ y _ ?_ (fun k => ?_) (blk1 m c t) (blk2 m c t)
  · show win0_8.index t (1 : Fin 2) * 8 + 1 * (y 1).val = (y 1).val
    omega
  · refine blk0 m c t (y 0) k _ ?_
    show win0_8.index t (0 : Fin 2) * 2048 + 1 * (y 0).val = t.val * 2048 + (y 0).val
    omega

/-! ## The cover, and the arrays after the run -/

theorem mem_blk7 (t : Fin cfg0.N) (i : S262144x1.Idx) :
    i ∈ ((cfg0.win 7).blk t).view.set ↔ ∀ a : Fin 2, win0_7.index t a * S2048x1.size a ≤ (i a).val
      ∧ (i a).val < win0_7.index t a * S2048x1.size a + S2048x1.size a := by
  show i ∈ ((View.whole main_v2_0).slice (win0_7.rect t)).set ↔ _
  rw [View.set_slice_whole, Rect.mem_set_unit]
  exact Iff.rfl

theorem mem_blk8 (t : Fin cfg0.N) (i : S262144x8.Idx) :
    i ∈ ((cfg0.win 8).blk t).view.set ↔ ∀ a : Fin 2, win0_8.index t a * S2048x8.size a ≤ (i a).val
      ∧ (i a).val < win0_8.index t a * S2048x8.size a + S2048x8.size a := by
  show i ∈ ((View.whole main_v2_1).slice (win0_8.rect t)).set ↔ _
  rw [View.set_slice_whole, Rect.mem_set_unit]
  exact Iff.rfl

/-- Row r of the first result array lies in the block of point r / 2048. -/
theorem cover7 (i : S262144x1.Idx) :
    ∃ t : Fin cfg0.N, (cfg0.win 7).flush t = true ∧ i ∈ ((cfg0.win 7).blk t).view.set := by
  have hi0 : (i 0).val < 262144 := (i 0).isLt
  have hi1 : (i 1).val < 1 := (i 1).isLt
  have hlt : (i 0).val / 2048 < cfg0.N := by show (i 0).val / 2048 < 128; omega
  obtain ⟨-, -, -, -, -, -, -, -, -, -, -, -, -, -, e70, e71, -⟩ := idx_facts ⟨(i 0).val / 2048, hlt⟩
  refine ⟨⟨(i 0).val / 2048, hlt⟩, flush0_7 _, ?_⟩
  rw [mem_blk7]
  intro a
  match a with
  | ⟨0, _⟩ =>
    show win0_7.index ⟨(i 0).val / 2048, hlt⟩ (0 : Fin 2) * 2048 ≤ (i 0).val
      ∧ (i 0).val < win0_7.index ⟨(i 0).val / 2048, hlt⟩ (0 : Fin 2) * 2048 + 2048
    rw [e70]; show (i 0).val / 2048 * 2048 ≤ (i 0).val ∧ (i 0).val < (i 0).val / 2048 * 2048 + 2048; omega
  | ⟨1, _⟩ =>
    show win0_7.index ⟨(i 0).val / 2048, hlt⟩ (1 : Fin 2) * 1 ≤ (i 1).val
      ∧ (i 1).val < win0_7.index ⟨(i 0).val / 2048, hlt⟩ (1 : Fin 2) * 1 + 1
    omega

/-- Row r of the second result array lies in the block of point r / 2048. -/
theorem cover8 (i : S262144x8.Idx) :
    ∃ t : Fin cfg0.N, (cfg0.win 8).flush t = true ∧ i ∈ ((cfg0.win 8).blk t).view.set := by
  have hi0 : (i 0).val < 262144 := (i 0).isLt
  have hi1 : (i 1).val < 8 := (i 1).isLt
  have hlt : (i 0).val / 2048 < cfg0.N := by show (i 0).val / 2048 < 128; omega
  obtain ⟨-, -, -, -, -, -, -, -, -, -, -, -, -, -, -, -, e80, e81⟩ := idx_facts ⟨(i 0).val / 2048, hlt⟩
  refine ⟨⟨(i 0).val / 2048, hlt⟩, flush0_8 _, ?_⟩
  rw [mem_blk8]
  intro a
  match a with
  | ⟨0, _⟩ =>
    show win0_8.index ⟨(i 0).val / 2048, hlt⟩ (0 : Fin 2) * 2048 ≤ (i 0).val
      ∧ (i 0).val < win0_8.index ⟨(i 0).val / 2048, hlt⟩ (0 : Fin 2) * 2048 + 2048
    rw [e80]; show (i 0).val / 2048 * 2048 ≤ (i 0).val ∧ (i 0).val < (i 0).val / 2048 * 2048 + 2048; omega
  | ⟨1, _⟩ =>
    show win0_8.index ⟨(i 0).val / 2048, hlt⟩ (1 : Fin 2) * 8 ≤ (i 1).val
      ∧ (i 1).val < win0_8.index ⟨(i 0).val / 2048, hlt⟩ (1 : Fin 2) * 8 + 8
    omega

theorem final7 (c : Dev nD) : (dats m 0 c).arrAt 7 cfg0.N = ansOf m c :=
  (dats m 0 c).arrAt_eq_of_cover 7 (ansOf m c) (fun t _ => flushed7_eq m c t) cover7

theorem final8 (c : Dev nD) : (dats m 0 c).arrAt 8 cfg0.N = relOf m c :=
  (dats m 0 c).arrAt_eq_of_cover 8 (relOf m c) (fun t _ => flushed8_eq m c t) cover8

/-- The run, read: every weakly fair execution ends with the two result arrays at the row-by-row functions of the
    argument arrays, the arguments unchanged. -/
theorem run : θ_run defs (onTc (τ := τ) (main (F := Ideal))) ⟨m, fun _ => 0, ρ⟩ fun r => ∀ c : Dev nD,
      r.2.mem ((c : Thread nD τ).loc main_v2_0) = ansOf m c
      ∧ r.2.mem ((c : Thread nD τ).loc main_v2_1) = relOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelArr

end
-- ==== Proof.RefRow.lean ====
/-
  The reference, row by row.

  The reference computes on all 262144 rows at once: the two score matrices as products with the transposed weight
  tables plus a bias row, the logistic function spelt as 1 / (1 + exp(−x)), the eight stage factors from columns of
  the select gates and rows of the two stage tables spread over a 262144 × 256 matrix, their running product from 1,
  the lane sum, and the absolute value of the select scores. Read at a row r (and a lane or a stage), each of these is
  the row specification's term for row r of the features: the product at an entry is an inner product over the 65
  features, every spread table is the table's entry, and 1 / (1 + exp(−x)) on the extended reals is the logistic
  function by definition.
-/
import proofs.«163921_j79121887527144_1_alg».proof.Proof.Gen.ReferenceIdeal.Read
import proofs.«163921_j79121887527144_1_alg».proof.Proof.RowSpec
import proofs.«163921_j79121887527144_1_alg».proof.Proof.Layout
import Idealize.ShloMosaic.PureOps.Ideal.Laws
import Idealize.ShloMosaic.Lib.IdealHost

noncomputable section

namespace Cert.RefRow

open Cert.ReferenceIdeal Cert.ReferenceIdeal.Gen Cert.ReferenceIdeal.Read Idealize.ShloMosaic Idealize.ShloMosaic.ValueIdx

variable (x0 : (⟨S262144x65, .f32⟩ : BufTy).Contents (Elt Ideal)) (x1 : (⟨S8x65, .f32⟩ : BufTy).Contents (Elt Ideal))
  (x2 : (⟨S8, .f32⟩ : BufTy).Contents (Elt Ideal)) (x3 : (⟨S256x65, .f32⟩ : BufTy).Contents (Elt Ideal))
  (x4 : (⟨S256, .f32⟩ : BufTy).Contents (Elt Ideal)) (x5 x6 : (⟨S8x256, .f32⟩ : BufTy).Contents (Elt Ideal))

/-- A scalar constant spread over any shape reads, everywhere, the constant's value. -/
theorem splat_at {T : Shape} (h : (⟨0, ![]⟩ : Shape).BroadcastsInDim T ![]) (w : BitVec 32) (i : T.Idx) :
    broadcastInDim T ![] h (constant (F := Ideal) ⟨0, ![]⟩ .f32 w) i = Ideal.ofBits .f32 w :=
  broadcastInDim_scalar_apply h _ i

/-! ## The scores and the gates -/

/-- Entry (r, s) of the select scores is the score of row r against select row s. -/
theorem select_score_at (r : Fin 262144) (s : Fin 8) :
    val_main_v4 (F := Ideal) x0 x1 x2 (ix2 r s)
      = RowSpec.score (fun k => x0 (ix2 r k)) (fun k => x1 (ix2 s k)) (x2 (ix1 s)) := by
  show val_main_v1 (F := Ideal) x0 x1 (ix2 r s) + val_main_v3 (F := Ideal) x2 (ix2 r s) = _
  rw [val_main_v1_apply]
  refine congrArg₂ (· + ·) (Finset.sum_congr rfl fun k _ => ?_)
    (Lay.hbias_rows x2 bcast_S8_S1x8_1 bcast_S1x8_S262144x8_0_1 r s)
  rw [val_main_v0_apply]
  exact congrArg₂ (· * ·)
    (congrArg x0 (funext fun a => Fin.ext (by match a with | ⟨0, _⟩ => rfl | ⟨1, _⟩ => rfl)))
    (congrArg x1 (funext fun a => Fin.ext (by match a with | ⟨0, _⟩ => rfl | ⟨1, _⟩ => rfl)))

/-- Entry (r, j) of the data scores is the score of row r against data row j. -/
theorem data_score_at (r : Fin 262144) (j : Fin 256) :
    val_main_v9 (F := Ideal) x0 x3 x4 (ix2 r j)
      = RowSpec.score (fun k => x0 (ix2 r k)) (fun k => x3 (ix2 j k)) (x4 (ix1 j)) := by
  show val_main_v6 (F := Ideal) x0 x3 (ix2 r j) + val_main_v8 (F := Ideal) x4 (ix2 r j) = _
  rw [val_main_v6_apply]
  refine congrArg₂ (· + ·) (Finset.sum_congr rfl fun k _ => ?_)
    (Lay.hbias_rows x4 bcast_S256_S1x256_1 bcast_S1x256_S262144x256_0_1 r j)
  rw [val_main_v5_apply]
  exact congrArg₂ (· * ·)
    (congrArg x0 (funext fun a => Fin.ext (by match a with | ⟨0, _⟩ => rfl | ⟨1, _⟩ => rfl)))
    (congrArg x3 (funext fun a => Fin.ext (by match a with | ⟨0, _⟩ => rfl | ⟨1, _⟩ => rfl)))

/-- The select gates: 1 / (1 + exp(−score)) is σ(score). -/
theorem select_gate_at (r : Fin 262144) (s : Fin 8) :
    val_main_v15 (F := Ideal) x0 x1 x2 (ix2 r s)
      = Ideal.logistic (RowSpec.score (fun k => x0 (ix2 r k)) (fun k => x1 (ix2 s k)) (x2 (ix1 s))) := by
  show Ideal.div (val_main_v14 (F := Ideal) (ix2 r s))
      (val_main_v12 (F := Ideal) (ix2 r s) + Ideal.exp (-(val_main_v4 (F := Ideal) x0 x1 x2 (ix2 r s)))) = _
  rw [select_score_at, show val_main_v14 (F := Ideal) (ix2 r s) = 1 from (splat_at bcast_S_S262144x8 _ _).trans Ideal.ofBits_one_f32,
    show val_main_v12 (F := Ideal) (ix2 r s) = 1 from (splat_at bcast_S_S262144x8 _ _).trans Ideal.ofBits_one_f32]
  rfl

/-- The data gates. -/
theorem data_gate_at (r : Fin 262144) (j : Fin 256) :
    val_main_v21 (F := Ideal) x0 x3 x4 (ix2 r j)
      = Ideal.logistic (RowSpec.score (fun k => x0 (ix2 r k)) (fun k => x3 (ix2 j k)) (x4 (ix1 j))) := by
  show Ideal.div (val_main_v20 (F := Ideal) (ix2 r j))
      (val_main_v18 (F := Ideal) (ix2 r j) + Ideal.exp (-(val_main_v9 (F := Ideal) x0 x3 x4 (ix2 r j)))) = _
  rw [data_score_at, show val_main_v20 (F := Ideal) (ix2 r j) = 1 from (splat_at bcast_S_S262144x256 _ _).trans Ideal.ofBits_one_f32,
    show val_main_v18 (F := Ideal) (ix2 r j) = 1 from (splat_at bcast_S_S262144x256 _ _).trans Ideal.ofBits_one_f32]
  rfl

/-! ## A stage factor, read at a row and a lane -/

/-- Stage `s`: column `s` of the select gates `G` spread along the lanes, times row `s` of `A` spread down the rows,
    plus row `s` of `B` spread down the rows, read at (r, j), is G (r, s) · A (s, j) + B (s, j). -/
theorem stage_at (s : ℕ) (k : Fin 8) (hk : k.val = s) (G : FVec Ideal S262144x8 .f32) (A B : FVec Ideal S8x256 .f32)
    (hc : S262144x8.Slices ![0, s] S262144x1) (hr : S8x256.Slices ![s, 0] S1x256) (r : Fin 262144) (j : Fin 256) :
    addf (mulf (broadcastInDim S262144x256 ![0, 1] bcast_S262144x1_S262144x256_0_1 (extractStridedSlice S262144x1 ![0, s] G hc))
          (broadcastInDim S262144x256 ![0, 1] bcast_S1x256_S262144x256_0_1
            (broadcastInDim S1x256 ![1] bcast_S256_S1x256_1 (shapeCast S256 (extractStridedSlice S1x256 ![s, 0] A hr) shapeCasts_S1x256_S256))))
        (broadcastInDim S262144x256 ![0, 1] bcast_S1x256_S262144x256_0_1
          (broadcastInDim S1x256 ![1] bcast_S256_S1x256_1 (shapeCast S256 (extractStridedSlice S1x256 ![s, 0] B hr) shapeCasts_S1x256_S256)))
        (ix2 r j)
      = G (ix2 r k) * A (ix2 k j) + B (ix2 k j) :=
  congrArg₂ (· + ·)
    (congrArg₂ (· * ·) (Lay.hcol_lanes s G hc bcast_S262144x1_S262144x256_0_1 r j k hk)
      (Lay.hrow_rows s A hr shapeCasts_S1x256_S256 bcast_S256_S1x256_1 bcast_S1x256_S262144x256_0_1 r j k hk))
    (Lay.hrow_rows s B hr shapeCasts_S1x256_S256 bcast_S256_S1x256_1 bcast_S1x256_S262144x256_0_1 r j k hk)

/-! ## The product of the stage factors, the two results -/

/-- The running product of the eight stage factors at (r, j). -/
theorem chain_at (r : Fin 262144) (j : Fin 256) :
    val_main_v126 (F := Ideal) x0 x1 x2 x5 x6 (ix2 r j)
      = RowSpec.chain (fun k => x0 (ix2 r k)) (fun s k => x1 (ix2 s k)) (fun s => x2 (ix1 s))
          (fun s j => x5 (ix2 s j)) (fun s j => x6 (ix2 s j)) j := by
  show val_main_v22 (F := Ideal) (ix2 r j) * val_main_v34 (F := Ideal) x0 x1 x2 x5 x6 (ix2 r j)
      * val_main_v47 (F := Ideal) x0 x1 x2 x5 x6 (ix2 r j) * val_main_v60 (F := Ideal) x0 x1 x2 x5 x6 (ix2 r j)
      * val_main_v73 (F := Ideal) x0 x1 x2 x5 x6 (ix2 r j) * val_main_v86 (F := Ideal) x0 x1 x2 x5 x6 (ix2 r j)
      * val_main_v99 (F := Ideal) x0 x1 x2 x5 x6 (ix2 r j) * val_main_v112 (F := Ideal) x0 x1 x2 x5 x6 (ix2 r j)
      * val_main_v125 (F := Ideal) x0 x1 x2 x5 x6 (ix2 r j) = _
  rw [show val_main_v22 (F := Ideal) (ix2 r j) = 1 from (splat_at bcast_S_S262144x256 _ _).trans Ideal.ofBits_one_f32,
    show val_main_v34 (F := Ideal) x0 x1 x2 x5 x6 (ix2 r j) = _ from
      stage_at 0 0 rfl (val_main_v15 (F := Ideal) x0 x1 x2) x5 x6 slices_S262144x8_S262144x1_0_0 slices_S8x256_S1x256_0_0 r j,
    show val_main_v47 (F := Ideal) x0 x1 x2 x5 x6 (ix2 r j) = _ from
      stage_at 1 1 rfl (val_main_v15 (F := Ideal) x0 x1 x2) x5 x6 slices_S262144x8_S262144x1_0_1 slices_S8x256_S1x256_1_0 r j,
    show val_main_v60 (F := Ideal) x0 x1 x2 x5 x6 (ix2 r j) = _ from
      stage_at 2 2 rfl (val_main_v15 (F := Ideal) x0 x1 x2) x5 x6 slices_S262144x8_S262144x1_0_2 slices_S8x256_S1x256_2_0 r j,
    show val_main_v73 (F := Ideal) x0 x1 x2 x5 x6 (ix2 r j) = _ from
      stage_at 3 3 rfl (val_main_v15 (F := Ideal) x0 x1 x2) x5 x6 slices_S262144x8_S262144x1_0_3 slices_S8x256_S1x256_3_0 r j,
    show val_main_v86 (F := Ideal) x0 x1 x2 x5 x6 (ix2 r j) = _ from
      stage_at 4 4 rfl (val_main_v15 (F := Ideal) x0 x1 x2) x5 x6 slices_S262144x8_S262144x1_0_4 slices_S8x256_S1x256_4_0 r j,
    show val_main_v99 (F := Ideal) x0 x1 x2 x5 x6 (ix2 r j) = _ from
      stage_at 5 5 rfl (val_main_v15 (F := Ideal) x0 x1 x2) x5 x6 slices_S262144x8_S262144x1_0_5 slices_S8x256_S1x256_5_0 r j,
    show val_main_v112 (F := Ideal) x0 x1 x2 x5 x6 (ix2 r j) = _ from
      stage_at 6 6 rfl (val_main_v15 (F := Ideal) x0 x1 x2) x5 x6 slices_S262144x8_S262144x1_0_6 slices_S8x256_S1x256_6_0 r j,
    show val_main_v125 (F := Ideal) x0 x1 x2 x5 x6 (ix2 r j) = _ from
      stage_at 7 7 rfl (val_main_v15 (F := Ideal) x0 x1 x2) x5 x6 slices_S262144x8_S262144x1_0_7 slices_S8x256_S1x256_7_0 r j]
  simp only [select_gate_at]
  rfl

/-- Row r of the first result is the row specification's first result of row r of the features. -/
theorem ans_at (r : Fin 262144) (u : Fin 1) :
    val_main_v131 (F := Ideal) x0 x1 x2 x3 x4 x5 x6 (ix2 r u)
      = RowSpec.ans (fun k => x0 (ix2 r k)) (fun s k => x1 (ix2 s k)) (fun s => x2 (ix1 s)) (fun j k => x3 (ix2 j k))
          (fun j => x4 (ix1 j)) (fun s j => x5 (ix2 s j)) (fun s j => x6 (ix2 s j)) := by
  rw [val_main_v131_apply, val_main_v130_apply]
  show Ideal.ofBits .f32 0x00000000#32 + _ = _
  rw [Ideal.ofBits_zero_f32, zero_add]
  unfold RowSpec.ans
  refine Finset.sum_congr rfl fun j _ => ?_
  have hi : idx_main_v130 (idx_main_v131 (ix2 r u)) j = ix2 r j :=
    funext fun a => Fin.ext (by match a with | ⟨0, _⟩ => rfl | ⟨1, _⟩ => rfl)
  rw [hi]
  show val_main_v21 (F := Ideal) x0 x3 x4 (ix2 r j) * val_main_v126 (F := Ideal) x0 x1 x2 x5 x6 (ix2 r j)
      * val_main_v128 (F := Ideal) (ix2 r j) = _
  rw [data_gate_at, chain_at, show val_main_v128 (F := Ideal) (ix2 r j) = Ideal.ofBits .f32 0x3F7FFF58#32 from splat_at bcast_S_S262144x256 _ _]

/-- Entry (r, s) of the second result is the absolute value of the score of row r against select row s. -/
theorem rel_at (r : Fin 262144) (s : Fin 8) :
    val_main_v132 (F := Ideal) x0 x1 x2 (ix2 r s)
      = RowSpec.rel (fun k => x0 (ix2 r k)) (fun s k => x1 (ix2 s k)) (fun s => x2 (ix1 s)) s := by
  show max (val_main_v4 (F := Ideal) x0 x1 x2 (ix2 r s)) (-(val_main_v4 (F := Ideal) x0 x1 x2 (ix2 r s))) = _
  rw [select_score_at]
  rfl

/-! ## The two result arrays -/

theorem ansArr_eq : val_main_v131 (F := Ideal) x0 x1 x2 x3 x4 x5 x6 = RowSpec.ansArr x0 x1 x2 x3 x4 x5 x6 := by
  funext i
  obtain ⟨r, u, rfl⟩ : ∃ (r : Fin 262144) (u : Fin 1), i = ix2 r u := ⟨i 0, i 1, eq_ix2 i⟩
  exact ans_at x0 x1 x2 x3 x4 x5 x6 r u

theorem relArr_eq : val_main_v132 (F := Ideal) x0 x1 x2 = RowSpec.relArr x0 x1 x2 := by
  funext i
  obtain ⟨r, s, rfl⟩ : ∃ (r : Fin 262144) (s : Fin 8), i = ix2 r s := ⟨i 0, i 1, eq_ix2 i⟩
  exact rel_at x0 x1 x2 r s

end Cert.RefRow

end
-- ==== Proof.lean ====
/-
  A sigmoid-gated product chain summed over lanes, against its plain reference: the two programs compute one function.

  Both programs take 262144 rows of 65 features and small parameter tables. Each row is scored against eight "select"
  weight rows and 256 "data" weight rows (inner product plus bias); the scores go through the logistic function; at
  each of 256 lanes the eight select gates enter eight stage factors gate · w + b whose product, taken from 1 in stage
  order, multiplies the lane's data gate and a constant; the first result is the sum over the lanes, the second the
  absolute values of the select scores (Proof/RowSpec.lean).

  The kernel does this 2048 rows at a time on a grid of 128 points, with the products taken after a change of float
  format that is the identity on the extended reals and accumulated into zero, and the logistic function as one
  operation; the reference does it on all rows at once, with the logistic function spelt 1 / (1 + exp(−x)), which on
  the extended reals is the same function by definition. Row by row both are the row specification
  (Proof/KernelRow.lean, Proof/RefRow.lean, over the table readings of Proof/Layout.lean), and the grid's blocks tile
  the result arrays (Proof/KernelArr.lean). No step regroups a product or distributes over a sum — the two sides
  differ only in how tables are laid out and in how the rows are tiled — so the finiteness of the inputs is never used.

  The three frame claims are the generated frames (the reference's from its generated run); the idealization rewrote
  no operation, so the preservation claim is trivial.
-/
import proofs.«163921_j79121887527144_1_alg».proof.Defs
import proofs.«163921_j79121887527144_1_alg».proof.Proof.Gen.Kernel
import proofs.«163921_j79121887527144_1_alg».proof.Proof.Gen.Kernel.Skeleton
import proofs.«163921_j79121887527144_1_alg».proof.Proof.Gen.Kernel.Launch
import proofs.«163921_j79121887527144_1_alg».proof.Proof.Gen.Kernel.Points
import proofs.«163921_j79121887527144_1_alg».proof.Proof.Gen.Kernel.Frame
import proofs.«163921_j79121887527144_1_alg».proof.Proof.Gen.KernelIdeal
import proofs.«163921_j79121887527144_1_alg».proof.Proof.Gen.KernelIdeal.Skeleton
import proofs.«163921_j79121887527144_1_alg».proof.Proof.Gen.KernelIdeal.Launch
import proofs.«163921_j79121887527144_1_alg».proof.Proof.Gen.KernelIdeal.Points
import proofs.«163921_j79121887527144_1_alg».proof.Proof.Gen.KernelIdeal.Frame
import proofs.«163921_j79121887527144_1_alg».proof.Proof.Gen.ReferenceIdeal
import proofs.«163921_j79121887527144_1_alg».proof.Proof.Gen.Pre_finite_inputs
import proofs.«163921_j79121887527144_1_alg».proof.Proof.Gen.KernelIdeal.Value
import proofs.«163921_j79121887527144_1_alg».proof.Proof.Gen.ReferenceIdeal.Run
import proofs.«163921_j79121887527144_1_alg».proof.Proof.Gen.ReferenceIdeal.Read
import proofs.«163921_j79121887527144_1_alg».proof.Proof.KernelArr
import proofs.«163921_j79121887527144_1_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end with the result arrays at the row-by-row functions of the argument arrays; started from memories
    that agree on the arguments, those are the same arrays. -/
theorem algebraic : Cert.algebraic_KernelIdeal_ReferenceIdeal := by
  intro m ρ m' ρ' _ hagree
  refine ⟨_, _, Cert.KernelArr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [Cert.ReferenceIdeal.Read.val_main_v131_eq, Cert.RefRow.ansArr_eq, h0, h1, h2, h3, h4, h5, h6]
  · obtain ⟨h0, h1, h2, -⟩ := hagree c
    refine (Cert.ReferenceIdeal.Read.val_main_v132_eq _ _ _).trans ((Cert.RefRow.relArr_eq _ _ _).trans ?_)
    rw [h0, h1, h2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
